-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S32x128 : Shape := ⟨2, ![32, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S4x4096x4096 .f32) (main_arg1 : FVec F S32x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S32x128 .f32 := Host.absf main_arg1
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  main_v8
-- ==== Kernel.lean ====
abbrev S4x4096x4096 : Shape := ⟨3, ![4, 4096, 4096]⟩
abbrev S32x128 : Shape := ⟨2, ![32, 128]⟩
abbrev S16384x32x128 : Shape := ⟨3, ![16384, 32, 128]⟩
abbrev S512x32x128 : Shape := ⟨3, ![512, 32, 128]⟩
abbrev S1x32x128 : Shape := ⟨3, ![1, 32, 128]⟩
abbrev S512x32x32 : Shape := ⟨3, ![512, 32, 32]⟩
abbrev S512x32 : Shape := ⟨2, ![512, 32]⟩
abbrev S512x32x1 : Shape := ⟨3, ![512, 32, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S32x128, .f32⟩
  | .hbm, ⟨2, _⟩ => ⟨S16384x32x128, .f32⟩
  | .hbm, ⟨3, _⟩ => ⟨S16384x32x128, .f32⟩
  | .hbm, ⟨4, _⟩ => ⟨S4x4096x4096, .f32⟩
  | .local _ .vmem, ⟨0, _⟩ => ⟨S512x32x128, .f32⟩
  | .local _ .vmem, ⟨1, _⟩ => ⟨S512x32x128, .f32⟩
  | .local _ .vmem, ⟨2, _⟩ => ⟨S32x128, .f32⟩
  | .local _ .vmem, ⟨3, _⟩ => ⟨S512x32x128, .f32⟩
  | .local _ .vmem, ⟨4, _⟩ => ⟨S512x32x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x4096_S16384x32x128 : S4x4096x4096.ShapeCasts S16384x32x128
  inb_S512x32x128_S512x32x128_0_0_0 : ∀ a, (![0, 0, 0] : Fin 3 → Nat) a + S512x32x128.size a ≤ S512x32x128.size a
  h_S512x32x128 : 0 < S512x32x128.numel
  shapeCasts_S512x32x128_S512x32x128 : S512x32x128.ShapeCasts S512x32x128
  inb_S32x128_S32x128_0_0 : ∀ a, (![0, 0] : Fin 2 → Nat) a + S32x128.size a ≤ S32x128.size a
  h_S32x128 : 0 < S32x128.numel
  shapeCasts_S32x128_S1x32x128 : S32x128.ShapeCasts S1x32x128
  broadcasts_S1x32x128_S512x32x128 : S1x32x128.Broadcasts S512x32x128
  reduces_S512x32x32_S512x32 : S512x32x32.Reduces [2] S512x32
  shapeCasts_S512x32_S512x32x1 : S512x32.ShapeCasts S512x32x1
  broadcasts_S512x32x1_S512x32x32 : S512x32x1.Broadcasts S512x32x32
  shapeCasts_S16384x32x128_S4x4096x4096 : S16384x32x128.ShapeCasts S4x4096x4096
  dot_S512x32x128_S512x32x128_S512x32x32_2_2_1_1_0_0_wf : DotDims.WF S512x32x128 S512x32x128 S512x32x32 [2] [2] [1] [1] [0] [0]
  dot_S512x32x32_S512x32x128_S512x32x128_2_1_1_2_0_0_wf : DotDims.WF S512x32x32 S512x32x128 S512x32x128 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32x128.size a ≤ S16384x32x128.size a
  hwx0_0 : ∀ i : grid0.Coords, EltTy.bits .f32 = 32 ∨ (Rect.block (s := S16384x32x128) S512x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32x128.size a ≤ S16384x32x128.size a
  hwx0_2 : ∀ i : grid0.Coords, EltTy.bits .f32 = 32 ∨ (Rect.block (s := S16384x32x128) S512x32x128.size (cc0_transform_2 i) (hinb0_2 i)).WholeWords (EltTy.packing .f32)

variable [Facts₀]

def dot_S512x32x128_S512x32x128_S512x32x32_2_2_1_1_0_0 : DotDims S512x32x128 S512x32x128 S512x32x32 where
  lhsContracting := [2]
  rhsContracting := [2]
  lhsNonContracting := [1]
  rhsNonContracting := [1]
  lhsBatch := [0]
  rhsBatch := [0]
  wf := dot_S512x32x128_S512x32x128_S512x32x32_2_2_1_1_0_0_wf
def dot_S512x32x32_S512x32x128_S512x32x128_2_1_1_2_0_0 : DotDims S512x32x32 S512x32x128 S512x32x128 where
  lhsContracting := [2]
  rhsContracting := [1]
  lhsNonContracting := [1]
  rhsNonContracting := [2]
  lhsBatch := [0]
  rhsBatch := [0]
  wf := dot_S512x32x32_S512x32x128_S512x32x128_2_1_1_2_0_0_wf

abbrev win0_0 : Pipeline.Window sig grid0 :=
  Pipeline.Window.ofSpec (Memref.whole main_v0) S512x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S32x128 : Shape := ⟨2, ![32, 128]⟩
abbrev S4x4096x32x128 : Shape := ⟨4, ![4, 4096, 32, 128]⟩
abbrev S1x1x32x128 : Shape := ⟨4, ![1, 1, 32, 128]⟩
abbrev S4x4096x32x32 : Shape := ⟨4, ![4, 4096, 32, 32]⟩
abbrev S_ : Shape := ⟨0, ![]⟩
abbrev S4x4096x32 : Shape := ⟨3, ![4, 4096, 32]⟩
abbrev S4x4096x32x1 : Shape := ⟨4, ![4, 4096, 32, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S32x128, .f32⟩
  | .hbm, ⟨2, _⟩ => ⟨S4x4096x32x128, .f32⟩
  | .hbm, ⟨3, _⟩ => ⟨S1x1x32x128, .f32⟩
  | .hbm, ⟨4, _⟩ => ⟨S4x4096x32x128, .f32⟩
  | .hbm, ⟨5, _⟩ => ⟨S4x4096x32x128, .f32⟩
  | .hbm, ⟨6, _⟩ => ⟨S4x4096x32x32, .f32⟩
  | .hbm, ⟨7, _⟩ => ⟨S_, .f32⟩
  | .hbm, ⟨8, _⟩ => ⟨S4x4096x32x32, .f32⟩
  | .hbm, ⟨9, _⟩ => ⟨S4x4096x32x32, .f32⟩
  | .hbm, ⟨10, _⟩ => ⟨S_, .f32⟩
  | .hbm, ⟨11, _⟩ => ⟨S4x4096x32, .f32⟩
  | .hbm, ⟨12, _⟩ => ⟨S_, .f32⟩
  | .hbm, ⟨13, _⟩ => ⟨S4x4096x32, .f32⟩
  | .hbm, ⟨14, _⟩ => ⟨S4x4096x32, .f32⟩
  | .hbm, ⟨15, _⟩ => ⟨S4x4096x32x1, .f32⟩
  | .hbm, ⟨16, _⟩ => ⟨S4x4096x32x32, .f32⟩
  | .hbm, ⟨17, _⟩ => ⟨S4x4096x32x32, .f32⟩
  | .hbm, ⟨18, _⟩ => ⟨S4x4096x32x32, .f32⟩
  | .hbm, ⟨19, _⟩ => ⟨S_, .f32⟩
  | .hbm, ⟨20, _⟩ => ⟨S4x4096x32, .f32⟩
  | .hbm, ⟨21, _⟩ => ⟨S4x4096x32x1, .f32⟩
  | .hbm, ⟨22, _⟩ => ⟨S4x4096x32x32, .f32⟩
  | .hbm, ⟨23, _⟩ => ⟨S4x4096x32x32, .f32⟩
  | .hbm, ⟨24, _⟩ => ⟨S4x4096x32x128, .f32⟩
  | .hbm, ⟨25, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  shapeCasts_S4x4096x4096_S4x4096x32x128 : S4x4096x4096.ShapeCasts S4x4096x32x128
  bcast_S32x128_S1x1x32x128_2_3 : S32x128.BroadcastsInDim S1x1x32x128 (![2, 3] : Fin 2 → Fin S1x1x32x128.rank)
  bcast_S1x1x32x128_S4x4096x32x128_0_1_2_3 : S1x1x32x128.BroadcastsInDim S4x4096x32x128 (![0, 1, 2, 3] : Fin 4 → Fin S4x4096x32x128.rank)
  bcast_S_S4x4096x32x32 : S_.BroadcastsInDim S4x4096x32x32 (![] : Fin 0 → Fin S4x4096x32x32.rank)
  reducesTo_S4x4096x32x32_S4x4096x32_d3 : S4x4096x32x32.ReducesTo [3] S4x4096x32
  h_S_ : 0 < S_.numel
  bcast_S_S4x4096x32 : S_.BroadcastsInDim S4x4096x32 (![] : Fin 0 → Fin S4x4096x32.rank)
  bcast_S4x4096x32_S4x4096x32x1_0_1_2 : S4x4096x32.BroadcastsInDim S4x4096x32x1 (![0, 1, 2] : Fin 3 → Fin S4x4096x32x1.rank)
  bcast_S4x4096x32x1_S4x4096x32x32_0_1_2_3 : S4x4096x32x1.BroadcastsInDim S4x4096x32x32 (![0, 1, 2, 3] : Fin 4 → Fin S4x4096x32x32.rank)
  shapeCasts_S4x4096x32x128_S4x4096x4096 : S4x4096x32x128.ShapeCasts S4x4096x4096
  dot_S4x4096x32x128_S4x4096x32x128_S4x4096x32x32_3_3_2_2_01_01_wf : DotDims.WF S4x4096x32x128 S4x4096x32x128 S4x4096x32x32 [3] [3] [2] [2] [0, 1] [0, 1]
  dot_S4x4096x32x32_S4x4096x32x128_S4x4096x32x128_3_2_2_3_01_01_wf : DotDims.WF S4x4096x32x32 S4x4096x32x128 S4x4096x32x128 [3] [2] [2] [3] [0, 1] [0, 1]

variable [Facts₀]

def dot_S4x4096x32x128_S4x4096x32x128_S4x4096x32x32_3_3_2_2_01_01 : DotDims S4x4096x32x128 S4x4096x32x128 S4x4096x32x32 where
  lhsContracting := [3]
  rhsContracting := [3]
  lhsNonContracting := [2]
  rhsNonContracting := [2]
  lhsBatch := [0, 1]
  rhsBatch := [0, 1]
  wf := dot_S4x4096x32x128_S4x4096x32x128_S4x4096x32x32_3_3_2_2_01_01_wf
def dot_S4x4096x32x32_S4x4096x32x128_S4x4096x32x128_3_2_2_3_01_01 : DotDims S4x4096x32x32 S4x4096x32x128 S4x4096x32x128 where
  lhsContracting := [3]
  rhsContracting := [2]
  lhsNonContracting := [2]
  rhsNonContracting := [3]
  lhsBatch := [0, 1]
  rhsBatch := [0, 1]
  wf := dot_S4x4096x32x32_S4x4096x32x128_S4x4096x32x128_3_2_2_3_01_01_wf

class Facts : Prop extends Facts₀ where

variable [Facts]
-- ==== Proof.HeadMix.lean ====
/-
  One token's cross-head mixing, as a function on the extended reals.

  A token carries 32 heads of 128 numbers each, `u h d`. The score of head `h` against head `e` is the inner
  product of the two heads times a fixed scale; each row of scores is shifted by its maximum, exponentiated and
  divided by the row's sum (a softmax over `e`), and the heads are then averaged with those weights:
  `mix u h d = ∑ e, (exp (s h e - M h) / ∑ e', exp (s h e' - M h)) * u e d`.
  Both programs compute this function token by token; `result` is the whole output array, every token's `mix` of
  the input row scaled head by head with the pattern table.
-/
import Idealize.ShloMosaic.PureOps.Ideal
import Idealize.ShloMosaic.Lib.ValueIdx

noncomputable section

open scoped BigOperators

namespace Cert.HeadMix

open Idealize.ShloMosaic Idealize.ShloMosaic.ValueIdx

/-- The scale of the scores: the one f32 word both programs multiply the inner products with (never evaluated). -/
def scale : EReal := Ideal.ofBits .f32 0x3DB504F3#32

/-- The value a row's running maximum starts from (the word both programs start it from; never evaluated). -/
def start : EReal := Ideal.ofBits .f32 0xFF800000#32

section Token

variable (u : Fin 32 → Fin 128 → EReal)

/-- Head `h` against head `e`: their inner product over the 128 coordinates, scaled. -/
def score (h e : Fin 32) : EReal := (∑ d : Fin 128, u h d * u e d) * scale

/-- The largest score of row `h`, as the fold of `max` over the row from `start`. -/
def rowMax (h : Fin 32) : EReal := (Finset.univ : Finset (Fin 32)).fold max start (fun e => score u h e)

/-- The unnormalised weight of head `e` for head `h`: the exponential of the score shifted by the row's maximum. -/
def weight (h e : Fin 32) : EReal := Ideal.exp (score u h e - rowMax u h)

/-- The mixed token: head `h` becomes the average of all heads `e`, weighted by the normalised weights of row `h`. -/
def mix (h : Fin 32) (d : Fin 128) : EReal :=
  ∑ e : Fin 32, Ideal.div (weight u h e) (∑ e' : Fin 32, weight u h e') * u e d

end Token

/-- A fold of `max` that starts from `b` is at least `b`, so taking the maximum with `b` once more changes nothing. -/
theorem max_fold_max_self {ι : Type} (s : Finset ι) (b : EReal) (f : ι → EReal) :
    max b (s.fold max b f) = s.fold max b f :=
  max_eq_right ((Finset.le_fold_max b).2 (Or.inl le_rfl))

/-- The output array: at row `(b, l)` and column `j = 128 h + d`, head `h`, coordinate `d` of the mixed token whose
    head `h'`, coordinate `d'` is the input at `(b, l, 128 h' + d')` times the pattern at `(h', d')`. -/
def result (x : (⟨3, ![4, 4096, 4096]⟩ : Shape).Idx → EReal) (p : (⟨2, ![32, 128]⟩ : Shape).Idx → EReal) :
    (⟨3, ![4, 4096, 4096]⟩ : Shape).Idx → EReal := fun i =>
  mix (fun h d => x (ix3 (i 0) (i 1) (⟨h.val * 128 + d.val, by have := h.isLt; have := d.isLt; omega⟩ : Fin 4096)) * p (ix2 h d))
    ⟨(i 2).val / 128, by have h2 : (i 2).val < 4096 := (i 2).isLt; omega⟩
    ⟨(i 2).val % 128, by omega⟩

end Cert.HeadMix

end
-- ==== Proof.KernelBlock.lean ====
/-
  What the kernel body computes from one block of 512 tokens, read at an index.

  The body multiplies the block by the pattern table (broadcast over the tokens), forms for every token the 32 × 32
  matrix of scaled inner products of its heads, takes the softmax of each row (maximum, shift, exponential, sum,
  quotient) and multiplies the weights back into the scaled heads. Read at token `l`, head `h`, coordinate `d` that
  is `HeadMix.mix` of token `l`'s scaled heads: each stage below is one operation of the body read at an index,
  the two matrix products as sums over the contracted coordinate and the two row reductions as a fold of `max` and
  a sum over the row.
-/
import proofs.«141890_j38826504356546_2_alg».proof.Proof.Gen.KernelIdeal.Skeleton
import proofs.«141890_j38826504356546_2_alg».proof.Proof.HeadMix
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.HeadMix

/-! ## The stages of the body -/

/-- The block scaled head by head with the pattern table. -/
def scaled (x0 : Vec Ideal S512x32x128 .f32) (x1 : Vec Ideal S32x128 .f32) : FVec Ideal S512x32x128 .f32 :=
  mulf (shapeCast S512x32x128 x0 Gen.shapeCasts_S512x32x128_S512x32x128)
    (broadcastTo S512x32x128 (shapeCast S1x32x128 x1 Gen.shapeCasts_S32x128_S1x32x128) Gen.broadcasts_S1x32x128_S512x32x128)

/-- Every token's matrix of scaled inner products of its heads. -/
def scores (w : FVec Ideal S512x32x128 .f32) : FVec Ideal S512x32x32 .f32 :=
  mulf (matmul dot_S512x32x128_S512x32x128_S512x32x32_2_2_1_1_0_0 none w w (constant S512x32x32 .f32 0x00000000#32))
    (broadcast S512x32x32 (Scalar.ofBits .f32 0x3DB504F3#32))

/-- A per-row value spread back over the row. -/
def spread (r : FVec Ideal S512x32 .f32) : FVec Ideal S512x32x32 .f32 :=
  broadcastTo S512x32x32 (shapeCast S512x32x1 r Gen.shapeCasts_S512x32_S512x32x1) Gen.broadcasts_S512x32x1_S512x32x32

/-- The exponentials of the scores shifted by their row's maximum. -/
def shifted (s : FVec Ideal S512x32x32 .f32) : FVec Ideal S512x32x32 .f32 :=
  exp (subf s (spread (multiReduction .maximumf [2] S512x32 s 0xFF800000#32 Gen.reduces_S512x32x32_S512x32 (.inl rfl) rfl)))

/-- Each row divided by its sum. -/
def normed (p : FVec Ideal S512x32x32 .f32) : FVec Ideal S512x32x32 .f32 :=
  divf p (spread (multiReduction .add [2] S512x32 p 0x00000000#32 Gen.reduces_S512x32x32_S512x32 (.inl rfl) rfl))

/-- The weights multiplied back into the scaled heads. -/
def mixed (a : FVec Ideal S512x32x32 .f32) (w : FVec Ideal S512x32x128 .f32) : FVec Ideal S512x32x128 .f32 :=
  matmul dot_S512x32x32_S512x32x128_S512x32x128_2_1_1_2_0_0 none a w (constant S512x32x128 .f32 0x00000000#32)

/-- The body's stored value is the composition of the stages. -/
theorem pay_eq (x0 : Vec Ideal S512x32x128 .f32) (x1 : Vec Ideal S32x128 .f32) :
    k0_pay1 (F := Ideal) x0 x1 = mixed (normed (shifted (scores (scaled x0 x1)))) (scaled x0 x1) := rfl

/-! ## Each stage at an index -/

/-- The scaled block at token `l`, head `h`, coordinate `d`: the block's entry times the pattern's at `(h, d)`. -/
theorem scaled_apply (x0 : Vec Ideal S512x32x128 .f32) (x1 : Vec Ideal S32x128 .f32) (l : Fin 512) (h : Fin 32) (d : Fin 128) :
    scaled x0 x1 (ix3 l h d) = x0 (ix3 l h d) * x1 (ix2 h d) := by
  unfold scaled
  rw [mulf_apply, shapeCast_self,
    broadcastTo_apply _ Gen.broadcasts_S1x32x128_S512x32x128 (ix3 l h d) (ix3 (⟨0, Nat.one_pos⟩ : Fin 1) h d) (fun a => by
      match a with
      | ⟨0, _⟩ => rfl
      | ⟨1, _⟩ => rfl
      | ⟨2, _⟩ => rfl),
    shapeCast_addUnit_apply]
  exact congrArg (x0 (ix3 l h d) * x1 ·) (funext fun a => by match a with | ⟨0, _⟩ => rfl | ⟨1, _⟩ => rfl)

/-- A per-row value spread over the row reads the row's value. -/
theorem spread_apply (r : FVec Ideal S512x32 .f32) (l : Fin 512) (h e : Fin 32) :
    spread r (ix3 l h e) = r (ix2 l h) := by
  unfold spread
  rw [broadcastTo_apply _ Gen.broadcasts_S512x32x1_S512x32x32 (ix3 l h e) (ix3 l h (⟨0, Nat.one_pos⟩ : Fin 1)) (fun a => by
      match a with
      | ⟨0, _⟩ => rfl
      | ⟨1, _⟩ => rfl
      | ⟨2, _⟩ => rfl)]
  exact shapeCast_apply r Gen.shapeCasts_S512x32_S512x32x1 (ix3 l h (⟨0, Nat.one_pos⟩ : Fin 1)) (ix2 l h)
    (by rw [Shape.rowMajor_val_two, Shape.rowMajor_val_three]; show l.val * 32 + h.val = (l.val * 32 + h.val) * 1 + 0; omega)

/-! ### The first product: heads against heads -/

theorem lhs1_0 (i : S512x32x32.Idx) (q : dot_S512x32x128_S512x32x128_S512x32x32_2_2_1_1_0_0.contr.Idx) : (dot_S512x32x128_S512x32x128_S512x32x32_2_2_1_1_0_0.lhsIdx i q 0).val = (i 0).val := by
  unfold DotDims.lhsIdx
  rw [dif_pos (show (0 : Fin S512x32x128.rank) ∈ dot_S512x32x128_S512x32x128_S512x32x32_2_2_1_1_0_0.lhsBatch by decide)]
  rfl
theorem lhs1_1 (i : S512x32x32.Idx) (q : dot_S512x32x128_S512x32x128_S512x32x32_2_2_1_1_0_0.contr.Idx) : (dot_S512x32x128_S512x32x128_S512x32x32_2_2_1_1_0_0.lhsIdx i q 1).val = (i 1).val := by
  unfold DotDims.lhsIdx
  rw [dif_neg (show ¬(1 : Fin S512x32x128.rank) ∈ dot_S512x32x128_S512x32x128_S512x32x32_2_2_1_1_0_0.lhsBatch by decide),
    dif_pos (show (1 : Fin S512x32x128.rank) ∈ dot_S512x32x128_S512x32x128_S512x32x32_2_2_1_1_0_0.lhsNonContracting by decide)]
  rfl
theorem lhs1_2 (i : S512x32x32.Idx) (q : dot_S512x32x128_S512x32x128_S512x32x32_2_2_1_1_0_0.contr.Idx) : (dot_S512x32x128_S512x32x128_S512x32x32_2_2_1_1_0_0.lhsIdx i q 2).val = (q ⟨0, by decide⟩).val :=
  dot_S512x32x128_S512x32x128_S512x32x32_2_2_1_1_0_0.lhsIdx_val_of_single rfl i q
theorem rhs1_0 (i : S512x32x32.Idx) (q : dot_S512x32x128_S512x32x128_S512x32x32_2_2_1_1_0_0.contr.Idx) : (dot_S512x32x128_S512x32x128_S512x32x32_2_2_1_1_0_0.rhsIdx i q 0).val = (i 0).val := by
  unfold DotDims.rhsIdx
  rw [dif_pos (show (0 : Fin S512x32x128.rank) ∈ dot_S512x32x128_S512x32x128_S512x32x32_2_2_1_1_0_0.rhsBatch by decide)]
  rfl
theorem rhs1_1 (i : S512x32x32.Idx) (q : dot_S512x32x128_S512x32x128_S512x32x32_2_2_1_1_0_0.contr.Idx) : (dot_S512x32x128_S512x32x128_S512x32x32_2_2_1_1_0_0.rhsIdx i q 1).val = (i 2).val := by
  unfold DotDims.rhsIdx
  rw [dif_neg (show ¬(1 : Fin S512x32x128.rank) ∈ dot_S512x32x128_S512x32x128_S512x32x32_2_2_1_1_0_0.rhsBatch by decide),
    dif_pos (show (1 : Fin S512x32x128.rank) ∈ dot_S512x32x128_S512x32x128_S512x32x32_2_2_1_1_0_0.rhsNonContracting by decide)]
  rfl
theorem rhs1_2 (i : S512x32x32.Idx) (q : dot_S512x32x128_S512x32x128_S512x32x32_2_2_1_1_0_0.contr.Idx) : (dot_S512x32x128_S512x32x128_S512x32x32_2_2_1_1_0_0.rhsIdx i q 2).val = (q ⟨0, by decide⟩).val :=
  dot_S512x32x128_S512x32x128_S512x32x32_2_2_1_1_0_0.rhsIdx_val_of_single rfl i q

/-- The score of head `h` against head `e` of token `l`: the sum over the coordinates of the products, scaled. -/
theorem scores_apply (w : FVec Ideal S512x32x128 .f32) (l : Fin 512) (h e : Fin 32) :
    scores w (ix3 l h e) = (∑ d : Fin 128, w (ix3 l h d) * w (ix3 l e d)) * scale := by
  unfold scores
  rw [mulf_apply, broadcast_apply]
  refine congrArg (· * scale) ?_
  simp only [matmul]
  rw [Ideal.matmul_constant_zero_apply,
    ← Equiv.sum_comp (contrEquiv1 dot_S512x32x128_S512x32x128_S512x32x32_2_2_1_1_0_0 128 rfl rfl).symm]
  refine Finset.sum_congr rfl fun k _ => ?_
  have hk := contrEquiv1_symm_val dot_S512x32x128_S512x32x128_S512x32x32_2_2_1_1_0_0 128 rfl rfl k
  have el : dot_S512x32x128_S512x32x128_S512x32x32_2_2_1_1_0_0.lhsIdx (ix3 l h e) ((contrEquiv1 dot_S512x32x128_S512x32x128_S512x32x32_2_2_1_1_0_0 128 rfl rfl).symm k) = ix3 l h k :=
    funext fun a => Fin.ext (by
      match a with
      | ⟨0, _⟩ => exact lhs1_0 _ _
      | ⟨1, _⟩ => exact lhs1_1 _ _
      | ⟨2, _⟩ => exact (lhs1_2 _ _).trans hk)
  have er : dot_S512x32x128_S512x32x128_S512x32x32_2_2_1_1_0_0.rhsIdx (ix3 l h e) ((contrEquiv1 dot_S512x32x128_S512x32x128_S512x32x32_2_2_1_1_0_0 128 rfl rfl).symm k) = ix3 l e k :=
    funext fun a => Fin.ext (by
      match a with
      | ⟨0, _⟩ => exact rhs1_0 _ _
      | ⟨1, _⟩ => exact rhs1_1 _ _
      | ⟨2, _⟩ => exact (rhs1_2 _ _).trans hk)
  rw [el, er]

/-! ### The two row reductions -/

/-- The row's maximum: the fold of `max` over the row from the starting value. -/
theorem rowMax_apply (s : FVec Ideal S512x32x32 .f32) (l : Fin 512) (h : Fin 32) :
    multiReduction .maximumf [2] S512x32 s 0xFF800000#32 Gen.reduces_S512x32x32_S512x32 (.inl rfl) rfl (ix2 l h)
      = (Finset.univ : Finset (Fin 32)).fold max start (fun e => s (ix3 l h e)) := by
  refine (Ideal.multiReduction_maximumf_single s 0xFF800000#32 Gen.reduces_S512x32x32_S512x32 (.inl rfl) rfl (ix2 l h)).trans ?_
  refine congrArg (Finset.fold max _ · Finset.univ) (funext fun (e : Fin 32) => ?_)
  exact congrArg s (funext fun a => Fin.ext (by match a with | ⟨0, _⟩ => rfl | ⟨1, _⟩ => rfl | ⟨2, _⟩ => rfl))

/-- The row's sum. -/
theorem rowSum_apply (p : FVec Ideal S512x32x32 .f32) (l : Fin 512) (h : Fin 32) :
    multiReduction .add [2] S512x32 p 0x00000000#32 Gen.reduces_S512x32x32_S512x32 (.inl rfl) rfl (ix2 l h)
      = ∑ e : Fin 32, p (ix3 l h e) := by
  refine (Ideal.multiReduction_add_single p 0x00000000#32 Gen.reduces_S512x32x32_S512x32 (.inl rfl) rfl (ix2 l h)).trans ?_
  refine Finset.sum_congr rfl fun (e : Fin 32) _ => ?_
  exact congrArg p (funext fun a => Fin.ext (by match a with | ⟨0, _⟩ => rfl | ⟨1, _⟩ => rfl | ⟨2, _⟩ => rfl))

theorem shifted_apply (s : FVec Ideal S512x32x32 .f32) (l : Fin 512) (h e : Fin 32) :
    shifted s (ix3 l h e) = Ideal.exp (s (ix3 l h e) - (Finset.univ : Finset (Fin 32)).fold max start (fun e' => s (ix3 l h e'))) := by
  unfold shifted
  show Ideal.exp (s (ix3 l h e) - spread _ (ix3 l h e)) = _
  rw [spread_apply, rowMax_apply]

theorem normed_apply (p : FVec Ideal S512x32x32 .f32) (l : Fin 512) (h e : Fin 32) :
    normed p (ix3 l h e) = Ideal.div (p (ix3 l h e)) (∑ e' : Fin 32, p (ix3 l h e')) := by
  unfold normed
  rw [divf_apply, spread_apply, rowSum_apply]

/-! ### The second product: weights against heads -/

theorem lhs2_0 (i : S512x32x128.Idx) (q : dot_S512x32x32_S512x32x128_S512x32x128_2_1_1_2_0_0.contr.Idx) : (dot_S512x32x32_S512x32x128_S512x32x128_2_1_1_2_0_0.lhsIdx i q 0).val = (i 0).val := by
  unfold DotDims.lhsIdx
  rw [dif_pos (show (0 : Fin S512x32x32.rank) ∈ dot_S512x32x32_S512x32x128_S512x32x128_2_1_1_2_0_0.lhsBatch by decide)]
  rfl
theorem lhs2_1 (i : S512x32x128.Idx) (q : dot_S512x32x32_S512x32x128_S512x32x128_2_1_1_2_0_0.contr.Idx) : (dot_S512x32x32_S512x32x128_S512x32x128_2_1_1_2_0_0.lhsIdx i q 1).val = (i 1).val := by
  unfold DotDims.lhsIdx
  rw [dif_neg (show ¬(1 : Fin S512x32x32.rank) ∈ dot_S512x32x32_S512x32x128_S512x32x128_2_1_1_2_0_0.lhsBatch by decide),
    dif_pos (show (1 : Fin S512x32x32.rank) ∈ dot_S512x32x32_S512x32x128_S512x32x128_2_1_1_2_0_0.lhsNonContracting by decide)]
  rfl
theorem lhs2_2 (i : S512x32x128.Idx) (q : dot_S512x32x32_S512x32x128_S512x32x128_2_1_1_2_0_0.contr.Idx) : (dot_S512x32x32_S512x32x128_S512x32x128_2_1_1_2_0_0.lhsIdx i q 2).val = (q ⟨0, by decide⟩).val :=
  dot_S512x32x32_S512x32x128_S512x32x128_2_1_1_2_0_0.lhsIdx_val_of_single rfl i q
theorem rhs2_0 (i : S512x32x128.Idx) (q : dot_S512x32x32_S512x32x128_S512x32x128_2_1_1_2_0_0.contr.Idx) : (dot_S512x32x32_S512x32x128_S512x32x128_2_1_1_2_0_0.rhsIdx i q 0).val = (i 0).val := by
  unfold DotDims.rhsIdx
  rw [dif_pos (show (0 : Fin S512x32x128.rank) ∈ dot_S512x32x32_S512x32x128_S512x32x128_2_1_1_2_0_0.rhsBatch by decide)]
  rfl
theorem rhs2_1 (i : S512x32x128.Idx) (q : dot_S512x32x32_S512x32x128_S512x32x128_2_1_1_2_0_0.contr.Idx) : (dot_S512x32x32_S512x32x128_S512x32x128_2_1_1_2_0_0.rhsIdx i q 1).val = (q ⟨0, by decide⟩).val :=
  dot_S512x32x32_S512x32x128_S512x32x128_2_1_1_2_0_0.rhsIdx_val_of_single rfl i q
theorem rhs2_2 (i : S512x32x128.Idx) (q : dot_S512x32x32_S512x32x128_S512x32x128_2_1_1_2_0_0.contr.Idx) : (dot_S512x32x32_S512x32x128_S512x32x128_2_1_1_2_0_0.rhsIdx i q 2).val = (i 2).val := by
  unfold DotDims.rhsIdx
  rw [dif_neg (show ¬(2 : Fin S512x32x128.rank) ∈ dot_S512x32x32_S512x32x128_S512x32x128_2_1_1_2_0_0.rhsBatch by decide),
    dif_pos (show (2 : Fin S512x32x128.rank) ∈ dot_S512x32x32_S512x32x128_S512x32x128_2_1_1_2_0_0.rhsNonContracting by decide)]
  rfl

/-- Head `h` of the mixed token: the sum over the heads `e` of the weight of `e` times head `e`. -/
theorem mixed_apply (a : FVec Ideal S512x32x32 .f32) (w : FVec Ideal S512x32x128 .f32) (l : Fin 512) (h : Fin 32) (d : Fin 128) :
    mixed a w (ix3 l h d) = ∑ e : Fin 32, a (ix3 l h e) * w (ix3 l e d) := by
  unfold mixed
  simp only [matmul]
  rw [Ideal.matmul_constant_zero_apply,
    ← Equiv.sum_comp (contrEquiv1 dot_S512x32x32_S512x32x128_S512x32x128_2_1_1_2_0_0 32 rfl rfl).symm]
  refine Finset.sum_congr rfl fun k _ => ?_
  have hk := contrEquiv1_symm_val dot_S512x32x32_S512x32x128_S512x32x128_2_1_1_2_0_0 32 rfl rfl k
  have el : dot_S512x32x32_S512x32x128_S512x32x128_2_1_1_2_0_0.lhsIdx (ix3 l h d) ((contrEquiv1 dot_S512x32x32_S512x32x128_S512x32x128_2_1_1_2_0_0 32 rfl rfl).symm k) = ix3 l h k :=
    funext fun a => Fin.ext (by
      match a with
      | ⟨0, _⟩ => exact lhs2_0 _ _
      | ⟨1, _⟩ => exact lhs2_1 _ _
      | ⟨2, _⟩ => exact (lhs2_2 _ _).trans hk)
  have er : dot_S512x32x32_S512x32x128_S512x32x128_2_1_1_2_0_0.rhsIdx (ix3 l h d) ((contrEquiv1 dot_S512x32x32_S512x32x128_S512x32x128_2_1_1_2_0_0 32 rfl rfl).symm k) = ix3 l k d :=
    funext fun a => Fin.ext (by
      match a with
      | ⟨0, _⟩ => exact rhs2_0 _ _
      | ⟨1, _⟩ => exact (rhs2_1 _ _).trans hk
      | ⟨2, _⟩ => exact rhs2_2 _ _)
  rw [el, er]

/-! ## The body's stored value at an index -/

/-- At token `l`, head `h`, coordinate `d` the body stores `mix` of token `l`'s scaled heads. -/
theorem pay_apply (x0 : Vec Ideal S512x32x128 .f32) (x1 : Vec Ideal S32x128 .f32) (l : Fin 512) (h : Fin 32) (d : Fin 128) :
    k0_pay1 (F := Ideal) x0 x1 (ix3 l h d) = mix (fun h' d' => x0 (ix3 l h' d') * x1 (ix2 h' d')) h d := by
  rw [pay_eq, mixed_apply]
  unfold mix
  refine Finset.sum_congr rfl fun e _ => ?_
  rw [normed_apply, scaled_apply]
  have hw : ∀ e' : Fin 32, shifted (scores (scaled x0 x1)) (ix3 l h e')
      = weight (fun h' d' => x0 (ix3 l h' d') * x1 (ix2 h' d')) h e' := fun e' => by
    rw [shifted_apply]
    unfold weight rowMax score
    simp only [scores_apply, scaled_apply]
  simp only [hw]

end Cert.KernelIdeal.Block

end
-- ==== Proof.KernelArray.lean ====
/-
  The kernel program's result array, as one function of the two arguments.

  The program views the input as 16384 tokens of 32 heads, cuts the tokens into 32 blocks of 512, runs the body on
  each block and writes each block's result back in place, and finally views the [16384, 32, 128] array as
  [4, 4096, 4096]. Block `t` holds the tokens `512 t … 512 t + 511`, every token is in exactly the block `n / 512`,
  and the body's value at a token is `HeadMix.mix` of that token's scaled heads; so the three-axis array is
  `tokens` (every token mixed), and the final view of it is `HeadMix.result`, by the arithmetic of the two
  row-major views: token `n = 4096 b + l`, column `j = 128 h + d`.
-/
import proofs.«141890_j38826504356546_2_alg».proof.Proof.Gen.KernelIdeal.Frame
import proofs.«141890_j38826504356546_2_alg».proof.Proof.KernelBlock
import Idealize.ShloMosaic.Lib.Pipeline.Value
import Idealize.ShloMosaic.Lib.StableHlo.Run
import Idealize.ShloMosaic.Lib.Tactic

set_option maxRecDepth 16384

noncomputable section

open scoped BigOperators

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Block Idealize.ShloMosaic.ValueIdx Cert.HeadMix

variable (m : (ℓ : Loc nD τ sig) → Buf (Elt Ideal) ℓ) (ρ : Dev nD → PrngReg)

/-! ## The three-axis array of mixed tokens -/

/-- Every token of the three-axis view `X` mixed: at token `n`, head `h`, coordinate `d`. -/
def tokens (X : S16384x32x128.Idx → EReal) (pat : S32x128.Idx → EReal) : S16384x32x128.Idx → EReal := fun i =>
  mix (fun h d => X (ix3 (⟨(i 0).val, (i 0).isLt⟩ : Fin 16384) h d) * pat (ix2 h d)) ⟨(i 1).val, (i 1).isLt⟩ ⟨(i 2).val, (i 2).isLt⟩

/-- The body's value at an index of a block whose token `l` is the array's token `n`. -/
theorem pay_at (x0 : Vec Ideal S512x32x128 .f32) (x1 : Vec Ideal S32x128 .f32) (X : S16384x32x128.Idx → EReal)
    (pat : S32x128.Idx → EReal) (l : Fin 512) (h : Fin 32) (d : Fin 128) (n : Fin 16384)
    (h0 : ∀ h' d', x0 (ix3 l h' d') = X (ix3 n h' d')) (h1 : ∀ h' d', x1 (ix2 h' d') = pat (ix2 h' d')) :
    k0_pay1 (F := Ideal) x0 x1 (ix3 l h d) = tokens X pat (ix3 n h d) := by
  rw [pay_apply]
  simp only [h0, h1]
  rfl

/-! ## The host line before the region -/

/-- The region finds the three-axis view of the input. -/
theorem V_main_v0 (c : Dev nD) :
    (V m c main_v0 : S16384x32x128.Idx → EReal)
      = shapeCast S16384x32x128 (m ((c : Thread nD τ).loc main_arg0)) Gen.shapeCasts_S4x4096x4096_S16384x32x128 := by
  show StableHlo.after hostOps0 (fun b => m (c, b)) (Proc.devRef .tc main_v0) = _
  after_results
  rfl

/-! ## The blocks -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 32 grid points: the input's and the output's block `t` is block `t` of the
    token axis and the whole of the other two axes; the pattern table's block is the whole table. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Grid point `t` writes back the tokens `512 t … 512 t + 511` of `tokens`, taken of the arrays as the region finds them. -/
theorem flushed_eq (c : Dev nD) (t : Fin cfg0.N) :
    (dats m 0 c).flushed 2 t = ((cfg0.win 2).blk t).view.read (Elt Ideal) (tokens (V m c main_v0) (V m c main_arg1)) := by
  show (cfg0.win 2).cut (grid0.coords t) ((dats m 0 c).after 2 t) = _
  rw [after0_2]
  unfold out0_2
  rw [View.canon_unit_zero hz3]
  simp only [View.ld_unit_zero (S := S512x32x128) hz3, View.ld_unit_zero (S := S32x128) hz2]
  obtain ⟨e0, e1, e2, e3, e4, e5, e6, e7⟩ := idx_facts t
  have ht : t.val < 32 := lt_of_lt_of_eq (show t.val < grid0.N from t.isLt) N_0
  refine funext fun (j : S512x32x128.Idx) => ?_
  obtain ⟨l, h, d, rfl⟩ : ∃ (l : Fin 512) (h : Fin 32) (d : Fin 128), j = ix3 l h d := ⟨j 0, j 1, j 2, eq_ix3 j⟩
  have hl := l.isLt; have hh := h.isLt; have hd := d.isLt
  have he : ((cfg0.win 2).blk t).view.emb (ix3 l h d) = ix3 (⟨t.val * 512 + l.val, by omega⟩ : Fin 16384) h d := by
    funext a; apply Fin.ext
    match a with
    | ⟨0, _⟩ => show win0_2.index t (0 : Fin 3) * 512 + 1 * l.val = t.val * 512 + l.val; omega
    | ⟨1, _⟩ => show win0_2.index t (1 : Fin 3) * 32 + 1 * h.val = h.val; omega
    | ⟨2, _⟩ => show win0_2.index t (2 : Fin 3) * 128 + 1 * d.val = d.val; omega
  show k0_pay1 (F := Ideal) (iblk m c 0 t) (iblk m c 1 t) (ix3 l h d) = tokens (V m c main_v0) (V m c main_arg1) (((cfg0.win 2).blk t).view.emb (ix3 l h d))
  rw [he]
  refine pay_at (iblk m c 0 t) (iblk m c 1 t) (V m c main_v0) (V m c main_arg1) l h d _ ?_ ?_
  · intro h' d'
    have hh' := h'.isLt; have hd' := d'.isLt
    show V m c main_v0 (((cfg0.win 0).blk t).view.emb (ix3 l h' d')) = V m c main_v0 (ix3 (⟨t.val * 512 + l.val, by omega⟩ : Fin 16384) h' d')
    refine congrArg (V m c main_v0) (funext fun a => Fin.ext ?_)
    match a with
    | ⟨0, _⟩ => show win0_0.index t (0 : Fin 3) * 512 + 1 * l.val = t.val * 512 + l.val; omega
    | ⟨1, _⟩ => show win0_0.index t (1 : Fin 3) * 32 + 1 * h'.val = h'.val; omega
    | ⟨2, _⟩ => show win0_0.index t (2 : Fin 3) * 128 + 1 * d'.val = d'.val; omega
  · intro h' d'
    have hh' := h'.isLt; have hd' := d'.isLt
    show V m c main_arg1 (((cfg0.win 1).blk t).view.emb (ix2 h' d')) = V m c main_arg1 (ix2 h' d')
    refine congrArg (V m c main_arg1) (funext fun a => Fin.ext ?_)
    match a with
    | ⟨0, _⟩ => show win0_1.index t (0 : Fin 2) * 32 + 1 * h'.val = h'.val; omega
    | ⟨1, _⟩ => show win0_1.index t (1 : Fin 2) * 128 + 1 * d'.val = d'.val; omega

/-- An index of the array is in point `t`'s block iff each coordinate is in the block's range on its axis. -/
theorem mem_blk (t : Fin cfg0.N) (i : S16384x32x128.Idx) :
    i ∈ ((cfg0.win 2).blk t).view.set ↔ ∀ a : Fin 3, win0_2.index t a * S512x32x128.size a ≤ (i a).val ∧ (i a).val < win0_2.index t a * S512x32x128.size a + S512x32x128.size a := by
  show i ∈ ((View.whole main_v1).slice (win0_2.rect t)).set ↔ _
  rw [View.set_slice_whole, Rect.mem_set_unit]
  exact Iff.rfl

/-- Every token lies in the block of the point `n / 512`. -/
theorem cover (i : S16384x32x128.Idx) : ∃ t : Fin cfg0.N, (cfg0.win 2).flush t = true ∧ i ∈ ((cfg0.win 2).blk t).view.set := by
  have h0 : (i 0).val < 16384 := (i 0).isLt
  have h1 : (i 1).val < 32 := (i 1).isLt
  have h2 : (i 2).val < 128 := (i 2).isLt
  let t : Fin cfg0.N := Fin.cast N_0.symm (⟨(i 0).val / 512, by omega⟩ : Fin 32)
  have htv : t.val = (i 0).val / 512 := rfl
  obtain ⟨e0, e1, e2, e3, e4, e5, e6, e7⟩ := idx_facts t
  refine ⟨t, flush0_2 t, ?_⟩
  rw [mem_blk]
  intro a
  match a with
  | ⟨0, _⟩ => show win0_2.index t (0 : Fin 3) * 512 ≤ (i 0).val ∧ (i 0).val < win0_2.index t (0 : Fin 3) * 512 + 512; omega
  | ⟨1, _⟩ => show win0_2.index t (1 : Fin 3) * 32 ≤ (i 1).val ∧ (i 1).val < win0_2.index t (1 : Fin 3) * 32 + 32; omega
  | ⟨2, _⟩ => show win0_2.index t (2 : Fin 3) * 128 ≤ (i 2).val ∧ (i 2).val < win0_2.index t (2 : Fin 3) * 128 + 128; omega

/-- After the region the three-axis array holds every token mixed: each token is written once, by its block's point. -/
theorem final (c : Dev nD) : (dats m 0 c).arrAt 2 cfg0.N = tokens (V m c main_v0) (V m c main_arg1) :=
  (dats m 0 c).arrAt_eq_of_cover 2 (tokens (V m c main_v0) (V m c main_arg1)) (fun t _ => flushed_eq m c t) cover

/-! ## The host line after the region, and the result -/

/-- The three-axis view at token `n` is the input at row `n / 4096`, position `n % 4096`, column `128 h + d`. -/
theorem view3_apply (x : S4x4096x4096.Idx → EReal) (n : Fin 16384) (h : Fin 32) (d : Fin 128) :
    shapeCast S16384x32x128 x Gen.shapeCasts_S4x4096x4096_S16384x32x128 (ix3 n h d)
      = x (ix3 (⟨n.val / 4096, by have := n.isLt; omega⟩ : Fin 4) (⟨n.val % 4096, by omega⟩ : Fin 4096)
          (⟨h.val * 128 + d.val, by have := h.isLt; have := d.isLt; omega⟩ : Fin 4096)) := by
  refine shapeCast_apply x _ _ _ ?_
  rw [Shape.rowMajor_val_three, Shape.rowMajor_val_three]
  have hn := n.isLt; have hh := h.isLt; have hd := d.isLt
  show (n.val / 4096 * 4096 + n.val % 4096) * 4096 + (h.val * 128 + d.val) = (n.val * 32 + h.val) * 128 + d.val
  omega

/-- The final view of the mixed tokens is `result` of the arguments. -/
theorem view_tokens (x : S4x4096x4096.Idx → EReal) (pat : S32x128.Idx → EReal) :
    shapeCast S4x4096x4096 (tokens (shapeCast S16384x32x128 x Gen.shapeCasts_S4x4096x4096_S16384x32x128) pat)
        Gen.shapeCasts_S16384x32x128_S4x4096x4096
      = result x pat := by
  funext i
  have h0 : (i 0).val < 4 := (i 0).isLt
  have h1 : (i 1).val < 4096 := (i 1).isLt
  have h2 : (i 2).val < 4096 := (i 2).isLt
  rw [shapeCast_apply _ Gen.shapeCasts_S16384x32x128_S4x4096x4096 i
    (ix3 (⟨(i 0).val * 4096 + (i 1).val, by omega⟩ : Fin 16384) (⟨(i 2).val / 128, by omega⟩ : Fin 32) (⟨(i 2).val % 128, by omega⟩ : Fin 128))
    (by rw [Shape.rowMajor_val_three, Shape.rowMajor_val_three]
        show (((i 0).val * 4096 + (i 1).val) * 32 + (i 2).val / 128) * 128 + (i 2).val % 128 = ((i 0).val * 4096 + (i 1).val) * 4096 + (i 2).val
        omega)]
  unfold tokens result
  refine congrArg (fun u => mix u _ _) (funext fun h => funext fun d => ?_)
  rw [view3_apply]
  refine congrArg (fun k => x k * pat (ix2 h d)) (funext fun a => Fin.ext ?_)
  match a with
  | ⟨0, _⟩ => show ((i 0).val * 4096 + (i 1).val) / 4096 = (i 0).val; omega
  | ⟨1, _⟩ => show ((i 0).val * 4096 + (i 1).val) % 4096 = (i 1).val; omega
  | ⟨2, _⟩ => rfl

/-- The result array after the run is the [4, 4096, 4096] view of the region's array, which is `tokens`; so it is `result`. -/
theorem tail_eq (c : Dev nD) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1)
      = tokens (V m c main_v0) (V m c main_arg1) from
    (Pipeline.withArrays_arr spec0 launch0.win.arr_inj c _ _ 2).trans (final m c)]
  rw [V_main_v0, V_main_arg1]
  exact view_tokens _ _

/-! ## The run -/

/-- Every weakly fair execution of the kernel program terminates with the result array at `result` of the arguments and
    the arguments unchanged. -/
theorem run : θ_run defs (onTc (τ := τ) (main (F := Ideal))) ⟨m, fun _ => 0, ρ⟩ fun r => ∀ c : Dev nD,
      r.2.mem ((c : Thread nD τ).loc main_v2) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Whole

end
-- ==== Proof.ReferenceArray.lean ====
/-
  The reference program's result, index by index, is `HeadMix.result`.

  The reference views the input as [4, 4096, 32, 128] (row, token, head, coordinate), scales it with the pattern
  table, and computes per token the same scaled inner products, softmax rows and weighted average of the heads as
  `HeadMix.mix`, finally viewing the result as [4, 4096, 4096] again. Two things differ in spelling only: the row
  maximum is taken once more against the value the fold started from (`max_fold_max_self`), and the row sum starts
  from the zero word. Each lemma reads one stage of the generated chain at explicit coordinates.
-/
import proofs.«141890_j38826504356546_2_alg».proof.Proof.Gen.ReferenceIdeal.Read
import proofs.«141890_j38826504356546_2_alg».proof.Proof.HeadMix
import Idealize.ShloMosaic.PureOps.Reduce

noncomputable section

open scoped BigOperators

namespace Cert.ReferenceIdeal.Mix

open Cert.ReferenceIdeal Cert.ReferenceIdeal.Gen Cert.ReferenceIdeal.Read Idealize.ShloMosaic Idealize.ShloMosaic.ValueIdx Cert.HeadMix

variable (x : (⟨S4x4096x4096, .f32⟩ : BufTy).Contents (Elt Ideal)) (p : (⟨S32x128, .f32⟩ : BufTy).Contents (Elt Ideal))

/-- The scaled heads of the token at row `b`, position `l`. -/
def heads (b : Fin 4) (l : Fin 4096) : Fin 32 → Fin 128 → EReal := fun h d =>
  x (ix3 b l (⟨h.val * 128 + d.val, by have := h.isLt; have := d.isLt; omega⟩ : Fin 4096)) * p (ix2 h d)

/-- The four-axis view of the input at `(b, l, h, d)` is the input at `(b, l, 128 h + d)`; times the pattern. -/
theorem scaled_apply (b : Fin 4) (l : Fin 4096) (h : Fin 32) (d : Fin 128) :
    val_main_v3 (F := Ideal) x p (ix4 b l h d) = heads x p b l h d := by
  rw [val_main_v3_apply, val_main_v0_apply, val_main_v2_apply, val_main_v1_apply]
  have e0 : idx_main_v0 (ix4 b l h d) = ix3 b l (⟨h.val * 128 + d.val, by have := h.isLt; have := d.isLt; omega⟩ : Fin 4096) :=
    funext fun a => Fin.ext (by
      have hb := b.isLt; have hl := l.isLt; have hh := h.isLt; have hd := d.isLt
      match a with
      | ⟨0, _⟩ => show (((b.val * 4096 + l.val) * 32 + h.val) * 128 + d.val) / 16777216 = b.val; omega
      | ⟨1, _⟩ => show (((b.val * 4096 + l.val) * 32 + h.val) * 128 + d.val) / 4096 % 4096 = l.val; omega
      | ⟨2, _⟩ => show (((b.val * 4096 + l.val) * 32 + h.val) * 128 + d.val) % 4096 = h.val * 128 + d.val; omega)
  have e1 : idx_main_v1 (idx_main_v2 (ix4 b l h d)) = ix2 h d :=
    funext fun a => by match a with | ⟨0, _⟩ => rfl | ⟨1, _⟩ => rfl
  rw [e0, e1]
  rfl

/-- The score of head `h` against head `e`. -/
theorem score_apply (b : Fin 4) (l : Fin 4096) (h e : Fin 32) :
    val_main_v6 (F := Ideal) x p (ix4 b l h e) = score (heads x p b l) h e := by
  rw [val_main_v6_apply, val_main_v4_apply, val_main_v5_apply]
  have el : ∀ k : Fin 128, lidx_main_v4 (ix4 b l h e) k = ix4 b l h k := fun k =>
    funext fun a => by match a with | ⟨0, _⟩ => rfl | ⟨1, _⟩ => rfl | ⟨2, _⟩ => rfl | ⟨3, _⟩ => rfl
  have er : ∀ k : Fin 128, ridx_main_v4 (ix4 b l h e) k = ix4 b l e k := fun k =>
    funext fun a => by match a with | ⟨0, _⟩ => rfl | ⟨1, _⟩ => rfl | ⟨2, _⟩ => rfl | ⟨3, _⟩ => rfl
  simp only [el, er, scaled_apply]
  rfl

/-- The scores' last axis is the one a row reduction drops. -/
theorem rowAxis : S4x4096x32x32.Reduces [3] S4x4096x32 := by decide

/-- The row's maximum: the reference's fold of `max` over the row, taken once more against its starting value. -/
theorem rowMax_apply (b : Fin 4) (l : Fin 4096) (h : Fin 32) :
    val_main_v9 (F := Ideal) x p (ix3 b l h) = rowMax (heads x p b l) h := by
  rw [val_main_v9_apply, val_main_v8_apply]
  unfold val_main_v7
  rw [Host.reduce_eq_fold_single (FloatOps.maximumf (F := Ideal) (φ := .f32)) _ _ reducesTo_S4x4096x32x32_S4x4096x32_d3 rowAxis h_S_]
  have ef : (val_main_v6 (F := Ideal) x p ∘ rowAxis.lift (ix3 b l h))
      = fun e : Fin 32 => score (heads x p b l) h e := funext fun (e : Fin 32) => by
    show val_main_v6 (F := Ideal) x p (rowAxis.lift (ix3 b l h) e) = _
    have ei : rowAxis.lift (ix3 b l h) e = ix4 b l h e := funext fun a => Fin.ext (by
      match a with | ⟨0, _⟩ => rfl | ⟨1, _⟩ => rfl | ⟨2, _⟩ => rfl | ⟨3, _⟩ => rfl)
    rw [ei, score_apply]
  rw [ef]
  exact max_fold_max_self _ _ _

/-- The unnormalised weight. -/
theorem weight_apply (b : Fin 4) (l : Fin 4096) (h e : Fin 32) :
    val_main_v13 (F := Ideal) x p (ix4 b l h e) = weight (heads x p b l) h e := by
  rw [val_main_v13_apply, val_main_v12_apply, val_main_v11_apply, val_main_v10_apply, score_apply]
  have ei : idx_main_v10 (idx_main_v11 (ix4 b l h e)) = ix3 b l h :=
    funext fun a => by match a with | ⟨0, _⟩ => rfl | ⟨1, _⟩ => rfl | ⟨2, _⟩ => rfl
  rw [ei, rowMax_apply]
  rfl

/-- The row's sum of weights: the reference's sum starts from the zero word. -/
theorem rowSum_apply (b : Fin 4) (l : Fin 4096) (h : Fin 32) :
    val_main_v14 (F := Ideal) x p (ix3 b l h) = ∑ e : Fin 32, weight (heads x p b l) h e := by
  rw [val_main_v14_apply, val_main_cst_2_apply]
  have ei : ∀ k : Fin 32, idx_main_v14 (ix3 b l h) k = ix4 b l h k := fun k =>
    funext fun a => by match a with | ⟨0, _⟩ => rfl | ⟨1, _⟩ => rfl | ⟨2, _⟩ => rfl | ⟨3, _⟩ => rfl
  simp only [ei, weight_apply]
  show Ideal.ofBits .f32 0x00000000#32 + _ = _
  rw [Ideal.ofBits_zero_f32, zero_add]

/-- The normalised weight. -/
theorem normed_apply (b : Fin 4) (l : Fin 4096) (h e : Fin 32) :
    val_main_v17 (F := Ideal) x p (ix4 b l h e)
      = Ideal.div (weight (heads x p b l) h e) (∑ e' : Fin 32, weight (heads x p b l) h e') := by
  rw [val_main_v17_apply, val_main_v16_apply, val_main_v15_apply, weight_apply]
  have ei : idx_main_v15 (idx_main_v16 (ix4 b l h e)) = ix3 b l h :=
    funext fun a => by match a with | ⟨0, _⟩ => rfl | ⟨1, _⟩ => rfl | ⟨2, _⟩ => rfl
  rw [ei, rowSum_apply]
  rfl

/-- The mixed token in the four-axis view. -/
theorem mixed_apply (b : Fin 4) (l : Fin 4096) (h : Fin 32) (d : Fin 128) :
    val_main_v18 (F := Ideal) x p (ix4 b l h d) = mix (heads x p b l) h d := by
  rw [val_main_v18_apply]
  have el : ∀ k : Fin 32, lidx_main_v18 (ix4 b l h d) k = ix4 b l h k := fun k =>
    funext fun a => by match a with | ⟨0, _⟩ => rfl | ⟨1, _⟩ => rfl | ⟨2, _⟩ => rfl | ⟨3, _⟩ => rfl
  have er : ∀ k : Fin 32, ridx_main_v18 (ix4 b l h d) k = ix4 b l k d := fun k =>
    funext fun a => by match a with | ⟨0, _⟩ => rfl | ⟨1, _⟩ => rfl | ⟨2, _⟩ => rfl | ⟨3, _⟩ => rfl
  simp only [el, er, normed_apply, scaled_apply]
  rfl

/-- The reference's result: the [4, 4096, 4096] view of the mixed tokens, which is `result` of the two arguments. -/
theorem result_eq : (val_main_v19 (F := Ideal) x p : S4x4096x4096.Idx → EReal) = result x p := by
  refine funext fun (i : S4x4096x4096.Idx) => ?_
  rw [val_main_v19_apply]
  have ei : idx_main_v19 i = ix4 (i 0) (i 1) (⟨(i 2).val / 128, by have h2 : (i 2).val < 4096 := (i 2).isLt; omega⟩ : Fin 32)
      (⟨(i 2).val % 128, by omega⟩ : Fin 128) :=
    funext fun a => Fin.ext (by
      have h0 : (i 0).val < 4 := (i 0).isLt; have h1 : (i 1).val < 4096 := (i 1).isLt; have h2 : (i 2).val < 4096 := (i 2).isLt
      match a with
      | ⟨0, _⟩ => show (((i 0).val * 4096 + (i 1).val) * 4096 + (i 2).val) / 16777216 = (i 0).val; omega
      | ⟨1, _⟩ => show (((i 0).val * 4096 + (i 1).val) * 4096 + (i 2).val) / 4096 % 4096 = (i 1).val; omega
      | ⟨2, _⟩ => show (((i 0).val * 4096 + (i 1).val) * 4096 + (i 2).val) / 128 % 32 = (i 2).val / 128; omega
      | ⟨3, _⟩ => show (((i 0).val * 4096 + (i 1).val) * 4096 + (i 2).val) % 128 = (i 2).val % 128; omega)
  rw [ei]
  exact mixed_apply x p _ _ _ _

end Cert.ReferenceIdeal.Mix

end
-- ==== Proof.lean ====
/-
  The claim: the kernel program and the reference compute the same array over the extended reals.

  Both programs take an input of 4 × 4096 tokens, each of 32 heads of 128 numbers, and a 32 × 128 pattern table.
  Each token's heads are scaled coordinate by coordinate with the table; the scaled heads are compared with each
  other by scaled inner products, every row of the 32 × 32 comparison goes through a softmax, and the heads are
  averaged with those weights (`HeadMix.mix`). The kernel program does this on blocks of 512 tokens of the
  [16384, 32, 128] view of the input and views the result as [4, 4096, 4096]; the reference does it on the
  [4, 4096, 32, 128] view. Both end at `HeadMix.result` of the two arguments (Proof/KernelArray.lean,
  Proof/ReferenceArray.lean): the same sums, the same fold of `max`, the same quotient, so no property of the
  inputs is used. The three programs terminate without fault with their arguments unchanged, and the idealized kernel
  program is the kernel program's own text read over the extended reals.
-/
import proofs.«141890_j38826504356546_2_alg».proof.Defs
import proofs.«141890_j38826504356546_2_alg».proof.Proof.Gen.Kernel
import proofs.«141890_j38826504356546_2_alg».proof.Proof.Gen.Kernel.Skeleton
import proofs.«141890_j38826504356546_2_alg».proof.Proof.Gen.Kernel.Launch
import proofs.«141890_j38826504356546_2_alg».proof.Proof.Gen.Kernel.Points
import proofs.«141890_j38826504356546_2_alg».proof.Proof.Gen.Kernel.Frame
import proofs.«141890_j38826504356546_2_alg».proof.Proof.Gen.KernelIdeal
import proofs.«141890_j38826504356546_2_alg».proof.Proof.Gen.KernelIdeal.Skeleton
import proofs.«141890_j38826504356546_2_alg».proof.Proof.Gen.KernelIdeal.Launch
import proofs.«141890_j38826504356546_2_alg».proof.Proof.Gen.KernelIdeal.Points
import proofs.«141890_j38826504356546_2_alg».proof.Proof.Gen.KernelIdeal.Frame
import proofs.«141890_j38826504356546_2_alg».proof.Proof.Gen.ReferenceIdeal
import proofs.«141890_j38826504356546_2_alg».proof.Proof.Gen.ReferenceIdeal.Run
import proofs.«141890_j38826504356546_2_alg».proof.Proof.Gen.ReferenceIdeal.Read
import proofs.«141890_j38826504356546_2_alg».proof.Proof.Gen.Pre_finite_inputs
import proofs.«141890_j38826504356546_2_alg».proof.Proof.HeadMix
import proofs.«141890_j38826504356546_2_alg».proof.Proof.KernelBlock
import proofs.«141890_j38826504356546_2_alg».proof.Proof.KernelArray
import proofs.«141890_j38826504356546_2_alg».proof.Proof.ReferenceArray
import Idealize.ShloMosaic.Adequacy
import Idealize.ShloMosaic.Init

noncomputable section

namespace Cert.Proof

open Idealize.ShloMosaic Idealize.ShloMosaic.TcCoe Idealize.SL.Sem

/-- The kernel program as printed runs to the end with its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories that agree on the two arguments both programs end with the result array at `HeadMix.result` of the
    arguments. -/
theorem algebraic : Cert.algebraic_KernelIdeal_ReferenceIdeal := by
  intro m ρ m' ρ' _ hagree
  refine ⟨fun c => Cert.HeadMix.result (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Mix.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
